-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel

variable [Facts]

def fn {F : FTy → Type} [FloatOps F] (main_arg0 : FVec F S16x4096x256 .f32) (main_arg1 : FVec F S16x4096x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  main_v8
-- ==== Kernel.lean ====
abbrev S16x4096x256 : Shape := ⟨3, ![16, 4096, 256]⟩
abbrev S16x32x128x256 : Shape := ⟨4, ![16, 32, 128, 256]⟩
abbrev S16x32x128 : Shape := ⟨3, ![16, 32, 128]⟩
abbrev S1x32x128x256 : Shape := ⟨4, ![1, 32, 128, 256]⟩
abbrev S1x32x128 : Shape := ⟨3, ![1, 32, 128]⟩
abbrev S16x4096 : Shape := ⟨2, ![16, 4096]⟩

abbrev nBuf : Space → Nat
  | .hbm => 6
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x32x128x256, .f32⟩
  | .hbm, ⟨3, _⟩ => ⟨S16x32x128x256, .f32⟩
  | .hbm, ⟨4, _⟩ => ⟨S16x32x128, .f32⟩
  | .hbm, ⟨5, _⟩ => ⟨S16x4096, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x128x256, .f32⟩
  | .local _ .vmem, ⟨3, _⟩ => ⟨S1x32x128x256, .f32⟩
  | .local _ .vmem, ⟨4, _⟩ => ⟨S1x32x128, .f32⟩
  | .local _ .vmem, ⟨5, _⟩ => ⟨S1x32x128, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x256_S16x32x128x256 : S16x4096x256.ShapeCasts S16x32x128x256
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S1x32x128x256 : S1x32x128x256.ShapeCasts S1x32x128x256
  reduces_S1x32x128x256_S1x32x128 : S1x32x128x256.Reduces [3] S1x32x128
  inb_S1x32x128_S1x32x128_0_0_0 : ∀ a, (![0, 0, 0] : Fin 3 → Nat) a + S1x32x128.size a ≤ S1x32x128.size a
  h_S1x32x128 : 0 < S1x32x128.numel
  shapeCasts_S16x32x128_S16x4096 : S16x32x128.ShapeCasts S16x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x256.size a ≤ S16x32x128x256.size a
  hwx0_0 : ∀ i : grid0.Coords, EltTy.bits .f32 = 32 ∨ (Rect.block (s := S16x32x128x256) S1x32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x256.size a ≤ S16x32x128x256.size a
  hwx0_1 : ∀ i : grid0.Coords, EltTy.bits .f32 = 32 ∨ (Rect.block (s := S16x32x128x256) S1x32x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S16x32x128.size a
  hwx0_2 : ∀ i : grid0.Coords, EltTy.bits .f32 = 32 ∨ (Rect.block (s := S16x32x128) S1x32x128.size (cc0_transform_2 i) (hinb0_2 i)).WholeWords (EltTy.packing .f32)

variable [Facts₀]

abbrev win0_0 : Pipeline.Window sig grid0 :=
  Pipeline.Window.ofSpec (Memref.whole main_v0) S1x32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S_, .f32⟩
  | .hbm, ⟨7, _⟩ => ⟨S16x4096x1, .f32⟩
  | .hbm, ⟨8, _⟩ => ⟨S16x4096x1, .f32⟩
  | .hbm, ⟨9, _⟩ => ⟨S16x4096x1, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x256, .f32⟩
  | .hbm, ⟨21, _⟩ => ⟨S16x4096x256, .f32⟩
  | .hbm, ⟨22, _⟩ => ⟨S16x4096x256, .f32⟩
  | .hbm, ⟨23, _⟩ => ⟨S_, .f32⟩
  | .hbm, ⟨24, _⟩ => ⟨S16x4096, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)

variable [Facts₀]

class Facts : Prop extends Facts₀ where

variable [Facts]
-- ==== Proof.CosineRow.lean ====
/-
  The mathematics of one row, away from any program.

  For two rows `x y : Fin n → EReal` the guarded inverse norm of a row is `invNorm (∑ x²)`, with
  `invNorm s = (max s ε)^(-1/2)` and `ε` the positive real the guard literal denotes.  The cosine of the
  two rows can be formed in two ways:

  * `fused x y      = (∑ₖ xₖ·yₖ) · invNorm (∑ x²) · invNorm (∑ y²)`   — dot product first, scale afterwards;
  * `normalized x y = ∑ₖ (xₖ·invNorm (∑ x²)) · (yₖ·invNorm (∑ y²))`   — scale every entry, then the dot product.

  On the extended reals the two agree as soon as every entry is a real number: the sums of squares are then
  real, `max · ε` is a positive real, its inverse square root is a real, and pulling the two real scale
  factors out of a finite sum of reals is distributivity in ℝ.  (With an infinite entry distributivity fails,
  which is why the hypothesis is there.)
-/
import Idealize.ShloMosaic.PureOps.Ideal
import Idealize.ShloMosaic.PureOps.Ideal.Laws

noncomputable section

open scoped BigOperators

namespace Cert.CosineRow

open Idealize.ShloMosaic

/-- The guard under the square root: the value of the f32 word both programs write for `1e-12`. -/
def guard : EReal := Ideal.ofBits .f32 0x2B8CBCCC#32

/-- The guard is a positive real number (the normal f32 number `9223372 · 2⁻⁶³`). -/
theorem guard_pos_real : ∃ e : ℝ, 0 < e ∧ guard = (e : EReal) := by
  refine ⟨_, ?_, by unfold guard; simp [Ideal.ofBits, Ideal.ieee, -EReal.coe_mul]; rfl⟩
  positivity

/-- The guarded inverse norm, from a sum of squares `s`: `(max s ε)^(-1/2)`. -/
def invNorm (s : EReal) : EReal := Ideal.rsqrt (max s guard)

/-- Of a real sum of squares the guarded inverse norm is a real: `max s ε ≥ ε > 0`. -/
theorem invNorm_real (s : ℝ) : ∃ r : ℝ, invNorm (s : EReal) = (r : EReal) := by
  obtain ⟨e, he, hg⟩ := guard_pos_real
  have hmax : max (s : EReal) (e : EReal) = ((max s e : ℝ) : EReal) :=
    (EReal.coe_strictMono.monotone.map_max).symm
  have hpos : 0 < max s e := lt_max_of_lt_right he
  refine ⟨(Real.sqrt (max s e))⁻¹, ?_⟩
  unfold invNorm
  rw [hg, hmax, Ideal.rsqrt_coe, if_neg (not_lt.mpr hpos.le), if_neg hpos.ne']

/-- The embedding of the reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {n : Nat}

/-- Dot product first, then the two inverse norms. -/
def fused (x y : Fin n → EReal) : EReal :=
  (∑ k, x k * y k) * invNorm (∑ k, x k * x k) * invNorm (∑ k, y k * y k)

/-- Every entry scaled by its row's inverse norm, then the dot product. -/
def normalized (x y : Fin n → EReal) : EReal :=
  ∑ k, (x k * invNorm (∑ j, x j * x j)) * (y k * invNorm (∑ j, y j * y j))

/-- Real scale factors leave a finite sum of products of reals: distributivity in ℝ, embedded. -/
theorem sum_scaled (f g : Fin n → ℝ) (a b : ℝ) :
    ∑ k, ((f k : EReal) * (a : EReal)) * ((g k : EReal) * (b : EReal))
      = (∑ k, (f k : EReal) * (g k : EReal)) * (a : EReal) * (b : EReal) := by
  simp only [← EReal.coe_mul, ← coe_sum]
  refine congrArg _ ?_
  rw [Finset.sum_mul, Finset.sum_mul]
  exact Finset.sum_congr rfl fun k _ => by ring

/-- The sum of squares of a row of reals is a real. -/
theorem sumsq_real (f : Fin n → ℝ) : ∑ k, (f k : EReal) * (f k : EReal) = ((∑ k, f k * f k : ℝ) : EReal) := by
  simp only [← EReal.coe_mul, ← coe_sum]

/-- THE LAW: on rows of real numbers, scaling every entry and then taking the dot product is the dot product
    scaled afterwards. -/
theorem normalized_eq_fused (x y : Fin n → EReal) (hx : ∀ k, ∃ r : ℝ, x k = (r : EReal))
    (hy : ∀ k, ∃ r : ℝ, y k = (r : EReal)) : normalized x y = fused x y := by
  choose f hf using hx
  choose g hg using hy
  obtain rfl : x = fun k => (f k : EReal) := funext hf
  obtain rfl : y = fun k => (g k : EReal) := funext hg
  unfold normalized fused
  obtain ⟨a, ha⟩ := invNorm_real (∑ k, f k * f k)
  obtain ⟨b, hb⟩ := invNorm_real (∑ k, g k * g k)
  simp only [sumsq_real, ha, hb]
  exact sum_scaled f g a b

end Cert.CosineRow

end
-- ==== Proof.KernelRow.lean ====
/-
  What the kernel body stores, read at one index.

  The body loads a block `x0` of the first operand and a block `x1` of the second, both of shape
  [1, 32, 128, 256], and stores a [1, 32, 128] value.  At the index `(u, g, l)` that value depends only on
  the two rows `x0 (u, g, l, ·)` and `x1 (u, g, l, ·)` of length 256: it is their dot product times the
  guarded inverse norm of each — `CosineRow.fused` of the two rows.  The three lane reductions of the body
  are sums over the last coordinate; everything else is pointwise.
-/
import proofs.«131800_j70617852280973_2_alg».proof.Proof.Gen.KernelIdeal.Skeleton
import proofs.«131800_j70617852280973_2_alg».proof.Proof.CosineRow
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.CosineRow

/-- A lane reduction of a pointwise product, read at `(u, g, l)`: the sum over the last coordinate of the
    products of the two blocks' entries in that row. -/
theorem lane_sum_mul (p q : FVec Ideal S1x32x128x256 .f32) (h : S1x32x128x256.Reduces [3] S1x32x128)
    (u : Fin 1) (g : Fin 32) (l : Fin 128) :
    multiReduction .add [3] S1x32x128 (mulf p q) 0x00000000#32 h (.inl rfl) rfl (ix3 u g l)
      = ∑ k : Fin 256, p (ix4 u g l k) * q (ix4 u g l k) := by
  refine (Ideal.multiReduction_add_single (mulf p q) 0x00000000#32 h (.inl rfl) rfl (ix3 u g l)).trans ?_
  refine Finset.sum_congr rfl fun k _ => ?_
  have e : h.lift (ix3 u g l) k = ix4 u g l k :=
    funext fun a => Fin.ext (by match a with | ⟨0, _⟩ => rfl | ⟨1, _⟩ => rfl | ⟨2, _⟩ => rfl | ⟨3, _⟩ => rfl)
  rw [e]
  rfl

/-- THE PAYLOAD AT AN INDEX: the stored value at `(u, g, l)` is the fused cosine of the two loaded rows. -/
theorem pay_apply (x0 x1 : Vec Ideal S1x32x128x256 .f32) (u : Fin 1) (g : Fin 32) (l : Fin 128) :
    k0_pay1 (F := Ideal) x0 x1 (ix3 u g l)
      = fused (fun k : Fin 256 => x0 (ix4 u g l k)) (fun k : Fin 256 => x1 (ix4 u g l k)) := by
  unfold k0_pay1
  simp only [shapeCast_self]
  show (multiReduction (F := Ideal) .add [3] S1x32x128 (mulf x0 x1) 0x00000000#32 reduces_S1x32x128x256_S1x32x128 (.inl rfl) rfl (ix3 u g l)
        * Ideal.rsqrt (max (multiReduction (F := Ideal) .add [3] S1x32x128 (mulf x0 x0) 0x00000000#32 reduces_S1x32x128x256_S1x32x128 (.inl rfl) rfl (ix3 u g l))
            (Ideal.ofBits .f32 0x2B8CBCCC#32)))
        * Ideal.rsqrt (max (multiReduction (F := Ideal) .add [3] S1x32x128 (mulf x1 x1) 0x00000000#32 reduces_S1x32x128x256_S1x32x128 (.inl rfl) rfl (ix3 u g l))
            (Ideal.ofBits .f32 0x2B8CBCCC#32)) = _
  rw [lane_sum_mul, lane_sum_mul, lane_sum_mul]
  rfl

end Cert.KernelIdeal.Row

end
-- ==== Proof.LibSplitAxis.lean ====
/-
  Reshapes that split or merge one axis, read at an index.

  A row-major array of shape [A, N, D] with N = G·L, reshaped to [A, G, L, D], holds at (p, g, l, k) what the
  source holds at (p, g·L + l, k); and an array of shape [A, G, L] reshaped to [A, N] holds at (p, n) what the
  source holds at (p, n / L, n % L).  Both are the statement that the row-major position is unchanged:
  ((p·G + g)·L + l)·D + k = (p·N + (g·L + l))·D + k.
-/
import Idealize.ShloMosaic.Lib.ValueIdx
import Idealize.ShloMosaic.Lib.Pipeline.Value

noncomputable section

namespace Cert.Lib.SplitAxis

open Idealize.ShloMosaic Idealize.ShloMosaic.ValueIdx

variable {α : Type}

/-- The merged coordinate g·L + l is below G·L. -/
theorem merged_lt {G L : ℕ} (g : Fin G) (l : Fin L) : g.val * L + l.val < G * L :=
  calc g.val * L + l.val < g.val * L + L := Nat.add_lt_add_left l.isLt _
    _ = (g.val + 1) * L := by rw [Nat.add_mul, Nat.one_mul]
    _ ≤ G * L := Nat.mul_le_mul_right L g.isLt

/-- [A, N, D] reshaped to [A, G, L, D] (N = G·L), read at (p, g, l, k): the source at (p, g·L + l, k). -/
theorem shapeCast_split_apply {A N G L D : ℕ} (hN : N = G * L) (x : (⟨3, ![A, N, D]⟩ : Shape).Idx → α)
    (h : (⟨3, ![A, N, D]⟩ : Shape).ShapeCasts ⟨4, ![A, G, L, D]⟩) (p : Fin A) (g : Fin G) (l : Fin L) (k : Fin D) :
    shapeCast ⟨4, ![A, G, L, D]⟩ x h (ix4 p g l k) = x (ix3 p ⟨g.val * L + l.val, lt_of_lt_of_eq (merged_lt g l) hN.symm⟩ k) :=
  shapeCast_apply x h _ _ (by
    rw [Shape.rowMajor_val_four, Shape.rowMajor_val_three]
    show (p.val * N + (g.val * L + l.val)) * D + k.val = ((p.val * G + g.val) * L + l.val) * D + k.val
    subst hN
    ring)

/-- The quotient of a merged coordinate by L is below G. -/
theorem quot_lt {N G L : ℕ} (hN : N = G * L) (n : Fin N) : n.val / L < G :=
  Nat.div_lt_of_lt_mul (lt_of_lt_of_eq n.isLt (hN.trans (Nat.mul_comm G L)))

/-- [A, G, L] reshaped to [A, N] (N = G·L, L > 0), read at (p, n): the source at (p, n / L, n % L). -/
theorem shapeCast_merge_apply {A N G L : ℕ} (hN : N = G * L) (hL : 0 < L) (y : (⟨3, ![A, G, L]⟩ : Shape).Idx → α)
    (h : (⟨3, ![A, G, L]⟩ : Shape).ShapeCasts ⟨2, ![A, N]⟩) (p : Fin A) (n : Fin N) :
    shapeCast ⟨2, ![A, N]⟩ y h (ix2 p n) = y (ix3 p ⟨n.val / L, quot_lt hN n⟩ ⟨n.val % L, Nat.mod_lt _ hL⟩) :=
  shapeCast_apply y h _ _ (by
    rw [Shape.rowMajor_val_three, Shape.rowMajor_val_two]
    show (p.val * G + n.val / L) * L + n.val % L = p.val * N + n.val
    have e := Nat.div_add_mod' n.val L
    subst hN
    rw [Nat.add_mul, Nat.mul_assoc, Nat.add_assoc, e])

/-- A merged coordinate is its quotient times L plus its remainder. -/
theorem merged_eq {N G L : ℕ} (hN : N = G * L) (hL : 0 < L) (n : Fin N) :
    (⟨(n.val / L) * L + n.val % L, lt_of_lt_of_eq (merged_lt ⟨n.val / L, quot_lt hN n⟩ ⟨n.val % L, Nat.mod_lt _ hL⟩) hN.symm⟩ : Fin N) = n :=
  Fin.ext (Nat.div_add_mod' n.val L)

end Cert.Lib.SplitAxis

end
-- ==== Proof.KernelValue.lean ====
/-
  The kernel program's result array as one function of its two arguments.

  The program reshapes each argument [16, 4096, 256] to [16, 32, 128, 256] (rows split 4096 = 32 · 128), runs the
  kernel over a grid of 16 points — point t loads block t (all of batch entry t) of both reshaped arrays and
  writes block t of a [16, 32, 128] array — and reshapes that array to [16, 4096].

  * Every point writes back a block of ONE array-wide function: at (p, g, l) the fused cosine of the rows
    (p, g, l, ·) of the two reshaped arrays (`grouped`); the 16 blocks tile the array, so it ends holding
    `grouped` (`final`).
  * The reshaped arrays hold at (p, g, l, k) the arguments at (p, 128·g + l, k), and the last reshape reads
    (p, n) at (p, n / 128, n % 128); since 128·(n / 128) + n % 128 = n, the result at (p, n) is the fused
    cosine of the rows (p, n, ·) of the two arguments (`result_apply`).
-/
import proofs.«131800_j70617852280973_2_alg».proof.Proof.Gen.KernelIdeal.Frame
import proofs.«131800_j70617852280973_2_alg».proof.Proof.KernelRow
import proofs.«131800_j70617852280973_2_alg».proof.Proof.LibSplitAxis
import Idealize.ShloMosaic.Lib.Pipeline.Value
import Idealize.ShloMosaic.Lib.StableHlo.Run
import Idealize.ShloMosaic.Lib.Tactic

noncomputable section

open scoped BigOperators

namespace Cert.KernelIdeal.Cosine

open Cert.KernelIdeal Cert.KernelIdeal.Gen Idealize.ShloMosaic Idealize.ShloMosaic.TcCoe Idealize.SL.Sem
open Idealize.ShloMosaic.ValueIdx
open Idealize.ShloMosaic.Pipeline (Dat)
open Cert.CosineRow

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The kernel's output array from the two reshaped arrays: at (p, g, l) the fused cosine of their rows (p, g, l, ·). -/
def grouped (A B : S16x32x128x256.Idx → EReal) : S16x32x128.Idx → EReal :=
  fun i => fused (fun k : Fin 256 => A (ix4 (i 0) (i 1) (i 2) k)) (fun k : Fin 256 => B (ix4 (i 0) (i 1) (i 2) k))

/-- The payload at an index given as a whole (not by coordinates). -/
theorem pay_at (x0 x1 : Vec Ideal S1x32x128x256 .f32) (y : S1x32x128.Idx) :
    k0_pay1 (F := Ideal) x0 x1 y
      = fused (fun k : Fin 256 => x0 (ix4 (y 0) (y 1) (y 2) k)) (fun k : Fin 256 => x1 (ix4 (y 0) (y 1) (y 2) k)) :=
  (congrArg (k0_pay1 (F := Ideal) x0 x1) (eq_ix3 y)).trans (Row.pay_apply x0 x1 (y 0) (y 1) (y 2))

/-- The printed index maps over the grid: both input windows move with the output window along the batch axis and sit
    at block 0 on every other axis; the output's batch block index is the point's and stays below 16. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 4) = win0_2.index t (0 : Fin 3) ∧ win0_1.index t (1 : Fin 4) = 0
    ∧ win0_1.index t (2 : Fin 4) = 0 ∧ win0_1.index t (3 : Fin 4) = 0
    ∧ win0_2.index t (1 : Fin 3) = 0 ∧ win0_2.index t (2 : Fin 3) = 0 :=
  (by decide +kernel : ∀ t : Fin grid0.N, _)

/-- Every batch entry is some point's block. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- Input window 0's block at point `t`, read at `y`, is the first reshaped array at the index `i` whose
    coordinates are block index × block size + the coordinate inside the block. -/
theorem iblk0_apply (c : Dev nD) (t : Fin cfg0.N) (y : S1x32x128x256.Idx) (i : S16x32x128x256.Idx)
    (h0 : win0_0.index t (0 : Fin 4) * 1 + 1 * (y 0).val = (i 0).val)
    (h1 : win0_0.index t (1 : Fin 4) * 32 + 1 * (y 1).val = (i 1).val)
    (h2 : win0_0.index t (2 : Fin 4) * 128 + 1 * (y 2).val = (i 2).val)
    (h3 : win0_0.index t (3 : Fin 4) * 256 + 1 * (y 3).val = (i 3).val) :
    iblk m c 0 t y = V m c main_v0 i := by
  show V m c main_v0 (((cfg0.win 0).blk t).view.emb y) = V m c main_v0 i
  refine congrArg (V m c main_v0) (funext fun a => Fin.ext ?_)
  match a with
  | ⟨0, _⟩ => exact h0
  | ⟨1, _⟩ => exact h1
  | ⟨2, _⟩ => exact h2
  | ⟨3, _⟩ => exact h3

/-- The same for input window 1 and the second reshaped array. -/
theorem iblk1_apply (c : Dev nD) (t : Fin cfg0.N) (y : S1x32x128x256.Idx) (i : S16x32x128x256.Idx)
    (h0 : win0_1.index t (0 : Fin 4) * 1 + 1 * (y 0).val = (i 0).val)
    (h1 : win0_1.index t (1 : Fin 4) * 32 + 1 * (y 1).val = (i 1).val)
    (h2 : win0_1.index t (2 : Fin 4) * 128 + 1 * (y 2).val = (i 2).val)
    (h3 : win0_1.index t (3 : Fin 4) * 256 + 1 * (y 3).val = (i 3).val) :
    iblk m c 1 t y = V m c main_v1 i := by
  show V m c main_v1 (((cfg0.win 1).blk t).view.emb y) = V m c main_v1 i
  refine congrArg (V m c main_v1) (funext fun a => Fin.ext ?_)
  match a with
  | ⟨0, _⟩ => exact h0
  | ⟨1, _⟩ => exact h1
  | ⟨2, _⟩ => exact h2
  | ⟨3, _⟩ => exact h3

/-- WHAT POINT `t` WRITES BACK is block `t` of `grouped` of the two reshaped arrays. -/
theorem flushed_eq (c : Dev nD) (t : Fin cfg0.N) :
    (dats m 0 c).flushed 2 t
      = ((cfg0.win 2).blk t).view.read (Elt Ideal) (grouped (V m c main_v0) (V m c main_v1)) := by
  show (cfg0.win 2).cut (grid0.coords t) ((dats m 0 c).after 2 t) = _
  rw [after0_2]
  unfold out0_2
  rw [View.canon_unit_zero hz3]
  simp only [View.ld_unit_zero (S := S1x32x128x256) hz4]
  obtain ⟨e00, e01, e02, e03, e10, e11, e12, e13, e21, e22⟩ := idx_facts t
  funext j
  show k0_pay1 (iblk m c 0 t) (iblk m c 1 t) j
    = grouped (V m c main_v0) (V m c main_v1) (((cfg0.win 2).blk t).view.emb j)
  refine (pay_at (iblk m c 0 t) (iblk m c 1 t) j).trans ?_
  show fused (fun k : Fin 256 => iblk m c 0 t (ix4 (j 0) (j 1) (j 2) k)) (fun k : Fin 256 => iblk m c 1 t (ix4 (j 0) (j 1) (j 2) k))
    = fused (fun k : Fin 256 => V m c main_v0 (ix4 ((((cfg0.win 2).blk t).view.emb j) 0) ((((cfg0.win 2).blk t).view.emb j) 1) ((((cfg0.win 2).blk t).view.emb j) 2) k))
        (fun k : Fin 256 => V m c main_v1 (ix4 ((((cfg0.win 2).blk t).view.emb j) 0) ((((cfg0.win 2).blk t).view.emb j) 1) ((((cfg0.win 2).blk t).view.emb j) 2) k))
  refine congrArg₂ (fused (n := 256)) (funext fun k => ?_) (funext fun k => ?_)
  · refine iblk0_apply m c t _ _ ?_ ?_ ?_ ?_
    · show win0_0.index t (0 : Fin 4) * 1 + 1 * (j 0).val = win0_2.index t (0 : Fin 3) * 1 + 1 * (j 0).val; omega
    · show win0_0.index t (1 : Fin 4) * 32 + 1 * (j 1).val = win0_2.index t (1 : Fin 3) * 32 + 1 * (j 1).val; omega
    · show win0_0.index t (2 : Fin 4) * 128 + 1 * (j 2).val = win0_2.index t (2 : Fin 3) * 128 + 1 * (j 2).val; omega
    · show win0_0.index t (3 : Fin 4) * 256 + 1 * k.val = k.val; omega
  · refine iblk1_apply m c t _ _ ?_ ?_ ?_ ?_
    · show win0_1.index t (0 : Fin 4) * 1 + 1 * (j 0).val = win0_2.index t (0 : Fin 3) * 1 + 1 * (j 0).val; omega
    · show win0_1.index t (1 : Fin 4) * 32 + 1 * (j 1).val = win0_2.index t (1 : Fin 3) * 32 + 1 * (j 1).val; omega
    · show win0_1.index t (2 : Fin 4) * 128 + 1 * (j 2).val = win0_2.index t (2 : Fin 3) * 128 + 1 * (j 2).val; omega
    · show win0_1.index t (3 : Fin 4) * 256 + 1 * k.val = k.val; omega

/-- An index of the output array is in point `t`'s block iff each coordinate is in the block's range on its axis. -/
theorem mem_blk (t : Fin cfg0.N) (i : S16x32x128.Idx) :
    i ∈ ((cfg0.win 2).blk t).view.set ↔ ∀ a : Fin 3, win0_2.index t a * S1x32x128.size a ≤ (i a).val
      ∧ (i a).val < win0_2.index t a * S1x32x128.size a + S1x32x128.size a := by
  show i ∈ ((View.whole main_v2).slice (win0_2.rect t)).set ↔ _
  rw [View.set_slice_whole, Rect.mem_set_unit]
  exact Iff.rfl

/-- The 16 blocks tile the output array: index (p, g, l) is in the block of the point whose batch index is p. -/
theorem cover (i : S16x32x128.Idx) :
    ∃ t : Fin cfg0.N, (cfg0.win 2).flush t = true ∧ i ∈ ((cfg0.win 2).blk t).view.set := by
  have hi0 : (i 0).val < 16 := (i 0).isLt
  have hi1 : (i 1).val < 32 := (i 1).isLt
  have hi2 : (i 2).val < 128 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- THE OUTPUT ARRAY after the region: `grouped` of the two reshaped arrays. -/
theorem final (c : Dev nD) : (dats m 0 c).arrAt 2 cfg0.N = grouped (V m c main_v0) (V m c main_v1) :=
  (dats m 0 c).arrAt_eq_of_cover 2 (grouped (V m c main_v0) (V m c main_v1)) (fun t _ => flushed_eq m c t) cover

/-- The first reshaped array is the first argument reshaped (the host line before the region). -/
theorem V_main_v0 (c : Dev nD) :
    (V m c main_v0 : S16x32x128x256.Idx → EReal)
      = shapeCast S16x32x128x256 (m ((c : Thread nD τ).loc main_arg0)) shapeCasts_S16x4096x256_S16x32x128x256 := by
  show StableHlo.after hostOps0 (fun b => m (c, b)) (Proc.devRef .tc main_v0) = _
  after_results
  rfl

/-- The second reshaped array is the second argument reshaped. -/
theorem V_main_v1 (c : Dev nD) :
    (V m c main_v1 : S16x32x128x256.Idx → EReal)
      = shapeCast S16x32x128x256 (m ((c : Thread nD τ).loc main_arg1)) shapeCasts_S16x4096x256_S16x32x128x256 := by
  show StableHlo.after hostOps0 (fun b => m (c, b)) (Proc.devRef .tc main_v1) = _
  after_results
  rfl

/-- The program's result buffer after the host line that follows the region: the output array reshaped. -/
theorem tail_eq (c : Dev nD) :
    Pipeline.afterTail₀ cfgs (dats m) 0 (V0 m) [hostOps1] c main_v3
      = shapeCast S16x4096 ((dats m 0 c).arrAt 2 cfg0.N) shapeCasts_S16x32x128_S16x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [e]
  rfl

/-- The program's result as one function of its two arguments: at (p, n) the fused cosine of their rows (p, n, ·). -/
def result (a b : S16x4096x256.Idx → EReal) : S16x4096.Idx → EReal :=
  fun i => fused (fun k : Fin 256 => a (ix3 (i 0) (i 1) k)) (fun k : Fin 256 => b (ix3 (i 0) (i 1) k))

/-- Splitting the rows 4096 = 32 · 128 before the kernel and merging them after it cancel: the reshaped `grouped` of
    the reshaped arguments is `result` of the arguments, because 128 · (n / 128) + n % 128 = n. -/
theorem result_eq (a b : S16x4096x256.Idx → EReal) (h1 : S16x4096x256.ShapeCasts S16x32x128x256)
    (h2 : S16x32x128.ShapeCasts S16x4096) :
    shapeCast S16x4096 (grouped (shapeCast S16x32x128x256 a h1) (shapeCast S16x32x128x256 b h1)) h2 = result a b := by
  funext i
  obtain ⟨p, n, rfl⟩ : ∃ (p : Fin 16) (n : Fin 4096), i = ix2 p n := ⟨i 0, i 1, eq_ix2 i⟩
  refine (Cert.Lib.SplitAxis.shapeCast_merge_apply (A := 16) (N := 4096) (G := 32) (L := 128) rfl (by decide) _ h2 p n).trans ?_
  show fused (fun k : Fin 256 => shapeCast S16x32x128x256 a h1 (ix4 p ⟨n.val / 128, _⟩ ⟨n.val % 128, _⟩ k))
      (fun k : Fin 256 => shapeCast S16x32x128x256 b h1 (ix4 p ⟨n.val / 128, _⟩ ⟨n.val % 128, _⟩ k))
    = fused (fun k : Fin 256 => a (ix3 p n k)) (fun k : Fin 256 => b (ix3 p n k))
  refine congrArg₂ (fused (n := 256)) (funext fun k => ?_) (funext fun k => ?_)
  · refine (Cert.Lib.SplitAxis.shapeCast_split_apply (A := 16) (N := 4096) (G := 32) (L := 128) (D := 256) rfl a h1 p _ _ k).trans ?_
    exact congrArg (fun q => a (ix3 p q k)) (Cert.Lib.SplitAxis.merged_eq (N := 4096) (G := 32) (L := 128) rfl (by decide) n)
  · refine (Cert.Lib.SplitAxis.shapeCast_split_apply (A := 16) (N := 4096) (G := 32) (L := 128) (D := 256) rfl b h1 p _ _ k).trans ?_
    exact congrArg (fun q => b (ix3 p q k)) (Cert.Lib.SplitAxis.merged_eq (N := 4096) (G := 32) (L := 128) rfl (by decide) n)

/-- The result buffer after the whole program, as a function of the arguments as launched. -/
theorem result_at (c : Dev nD) :
    Pipeline.afterTail₀ cfgs (dats m) 0 (V0 m) [hostOps1] c main_v3
      = result (m ((c : Thread nD τ).loc main_arg0)) (m ((c : Thread nD τ).loc main_arg1)) := by
  rw [tail_eq, final, V_main_v0, V_main_v1]
  exact result_eq _ _ _ _

/-- THE RUN, READ: every weakly fair execution terminates with the result buffer at `result` of the arguments and the
    arguments unchanged. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_at m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Cosine

end
-- ==== Proof.ReferenceRow.lean ====
/-
  What the reference computes, read at one index.

  The reference normalises each row of both arguments — every entry times the guarded inverse norm of its
  row — and then sums the products of the normalised entries over the last axis.  Read at `(p, n)` through
  the generated one-operation-at-a-time lemmas this is `CosineRow.normalized` of the two rows
  `a (p, n, ·)` and `b (p, n, ·)`: the inner reductions are the rows' sums of squares (their initial
  value is the zero word), the keep-dims broadcasts read the same `(p, n)` back, and the outer reduction
  is the sum over the last coordinate.
-/
import proofs.«131800_j70617852280973_2_alg».proof.Proof.Gen.ReferenceIdeal.Read
import proofs.«131800_j70617852280973_2_alg».proof.Proof.CosineRow
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read
open Idealize.ShloMosaic Idealize.ShloMosaic.ValueIdx Cert.CosineRow

/-- Row `(p, n)` of an argument, as a function of the last coordinate. -/
abbrev row (a : (⟨S16x4096x256, .f32⟩ : BufTy).Contents (Elt Ideal)) (p : Fin 16) (n : Fin 4096) : Fin 256 → EReal :=
  fun k => a (ix3 p n k)

/-- The first argument's sum of squares along the last axis, at `(p, n)`. -/
theorem sumsq_a (a : (⟨S16x4096x256, .f32⟩ : BufTy).Contents (Elt Ideal)) (p : Fin 16) (n : Fin 4096) :
    val_main_v1 (F := Ideal) a (ix2 p n) = ∑ k : Fin 256, row a p n k * row a p n k := by
  rw [val_main_v1_apply]
  show Ideal.ofBits .f32 0x00000000#32 + _ = _
  rw [Ideal.ofBits_zero_f32, zero_add]
  refine Finset.sum_congr rfl fun k _ => ?_
  have e : idx_main_v1 (ix2 p n) k = ix3 p n k :=
    funext fun d => Fin.ext (by match d with | ⟨0, _⟩ => rfl | ⟨1, _⟩ => rfl | ⟨2, _⟩ => rfl)
  rw [e]
  rfl

/-- The second argument's sum of squares along the last axis, at `(p, n)`. -/
theorem sumsq_b (b : (⟨S16x4096x256, .f32⟩ : BufTy).Contents (Elt Ideal)) (p : Fin 16) (n : Fin 4096) :
    val_main_v9 (F := Ideal) b (ix2 p n) = ∑ k : Fin 256, row b p n k * row b p n k := by
  rw [val_main_v9_apply]
  show Ideal.ofBits .f32 0x00000000#32 + _ = _
  rw [Ideal.ofBits_zero_f32, zero_add]
  refine Finset.sum_congr rfl fun k _ => ?_
  have e : idx_main_v9 (ix2 p n) k = ix3 p n k :=
    funext fun d => Fin.ext (by match d with | ⟨0, _⟩ => rfl | ⟨1, _⟩ => rfl | ⟨2, _⟩ => rfl)
  rw [e]
  rfl

/-- The factor every entry of row `(p, n)` of the first argument is scaled by: the row's guarded inverse norm. -/
theorem scale_a (a : (⟨S16x4096x256, .f32⟩ : BufTy).Contents (Elt Ideal)) (p : Fin 16) (n : Fin 4096) (k : Fin 256) :
    val_main_v6 (F := Ideal) a (ix3 p n k) = invNorm (∑ j : Fin 256, row a p n j * row a p n j) := by
  rw [val_main_v6_apply, val_main_v5_apply, val_main_v4_apply, val_main_v2_apply, val_main_v3_apply, val_main_cst_0_apply]
  have e : idx_main_v2 (idx_main_v6 (ix3 p n k)) = ix2 p n :=
    funext fun d => Fin.ext (by match d with | ⟨0, _⟩ => rfl | ⟨1, _⟩ => rfl)
  rw [e, sumsq_a]
  rfl

/-- The same for the second argument. -/
theorem scale_b (b : (⟨S16x4096x256, .f32⟩ : BufTy).Contents (Elt Ideal)) (p : Fin 16) (n : Fin 4096) (k : Fin 256) :
    val_main_v14 (F := Ideal) b (ix3 p n k) = invNorm (∑ j : Fin 256, row b p n j * row b p n j) := by
  rw [val_main_v14_apply, val_main_v13_apply, val_main_v12_apply, val_main_v10_apply, val_main_v11_apply, val_main_cst_2_apply]
  have e : idx_main_v10 (idx_main_v14 (ix3 p n k)) = ix2 p n :=
    funext fun d => Fin.ext (by match d with | ⟨0, _⟩ => rfl | ⟨1, _⟩ => rfl)
  rw [e, sumsq_b]
  rfl

/-- THE REFERENCE AT AN INDEX: the normalised-rows cosine of rows `(p, n)` of the two arguments. -/
theorem result_apply (a b : (⟨S16x4096x256, .f32⟩ : BufTy).Contents (Elt Ideal)) (p : Fin 16) (n : Fin 4096) :
    val_main_v17 (F := Ideal) a b (ix2 p n) = normalized (row a p n) (row b p n) := by
  rw [val_main_v17_apply]
  show Ideal.ofBits .f32 0x00000000#32 + _ = _
  rw [Ideal.ofBits_zero_f32, zero_add]
  unfold normalized
  refine Finset.sum_congr rfl fun k _ => ?_
  have e : idx_main_v17 (ix2 p n) k = ix3 p n k :=
    funext fun d => Fin.ext (by match d with | ⟨0, _⟩ => rfl | ⟨1, _⟩ => rfl | ⟨2, _⟩ => rfl)
  rw [e, val_main_v16_apply, val_main_v7_apply, val_main_v15_apply, scale_a, scale_b]
  rfl

end Cert.ReferenceIdeal.Row

end
-- ==== Proof.FiniteInputs.lean ====
/-
  The precondition, read back: every entry of both arguments is a real number.

  The precondition says `|x| < +∞` at every entry of each argument, the two `all`-reductions joined by `and`.
  On the extended reals `|x| = max x (-x)` is `+∞` at both infinities, so an entry passing the test is the
  embedding of a real.
-/
import proofs.«131800_j70617852280973_2_alg».proof.Pre_finite_inputs
import proofs.«131800_j70617852280973_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The word the test compares against denotes `+∞`. -/
theorem inf_word : Ideal.ofBits .f32 0x7F800000#32 = ⊤ := by simp [Ideal.ofBits, Ideal.ieee]

/-- An extended real whose absolute value tests below `+∞` is a real. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  change BitVec.ofBool (decide (max x (-x) < Ideal.ofBits .f32 0x7F800000#32)) = 1#1 at h
  rw [inf_word] at h
  induction x using EReal.rec with
  | bot => simp at h
  | top => simp at h
  | coe r => exact ⟨r, rfl⟩

instance : Subsingleton S_.Idx := ⟨fun a b => funext fun d => d.elim0⟩

/-- FROM THE PRECONDITION: both arguments hold real numbers at every index. -/
theorem real_of_pre (a b : FVec Ideal S16x4096x256 .f32) (h : fn (F := Ideal) a b = fun _ => 1#1) :
    (∀ i, ∃ r : ℝ, a i = (r : EReal)) ∧ (∀ i, ∃ r : ℝ, b i = (r : EReal)) := by
  have h0 := congrFun h ix0
  dsimp only [fn] at h0
  obtain ⟨ha, hb⟩ := IntOp.andi_eq_one.1 h0
  exact ⟨fun i => real_of_abs_lt_inf _ (Host.reduce_andi_all _ _ _ _ _ ha i),
    fun i => real_of_abs_lt_inf _ (Host.reduce_andi_all _ _ _ _ _ hb i)⟩

end Cert.FiniteInputs

end
-- ==== Proof.lean ====
/-
  Row-wise cosine similarity: a kernel against its reference, on the extended reals.

  Both programs take `a b : f32[16, 4096, 256]` and return `f32[16, 4096]`; at (p, n) the result is the cosine
  of the rows `a (p, n, ·)` and `b (p, n, ·)` with each norm guarded from below, `(max (∑ x²) ε)^(-1/2)`.

  * The kernel forms the dot product of the two rows and scales it by the two inverse norms afterwards
    (`CosineRow.fused`); Proof/KernelRow.lean reads the stored value at an index, Proof/KernelValue.lean turns
    the 16 written blocks and the reshapes around the kernel into one function of the arguments and restates
    the program's run with it.
  * The reference scales every entry by its row's inverse norm and then takes the dot product
    (`CosineRow.normalized`); Proof/ReferenceRow.lean reads it at an index.
  * Proof/CosineRow.lean proves the two equal on rows of real numbers (distributivity in ℝ; false at infinite
    entries), and Proof/FiniteInputs.lean reads "every entry is real" off the precondition.

  The frames are the programs' runs with the result forgotten; the idealisation rewrote nothing, so `preserves`
  is trivial.
-/
import proofs.«131800_j70617852280973_2_alg».proof.Defs
import proofs.«131800_j70617852280973_2_alg».proof.Proof.Gen.Kernel
import proofs.«131800_j70617852280973_2_alg».proof.Proof.Gen.Kernel.Frame
import proofs.«131800_j70617852280973_2_alg».proof.Proof.Gen.KernelIdeal
import proofs.«131800_j70617852280973_2_alg».proof.Proof.Gen.KernelIdeal.Frame
import proofs.«131800_j70617852280973_2_alg».proof.Proof.Gen.ReferenceIdeal
import proofs.«131800_j70617852280973_2_alg».proof.Proof.Gen.ReferenceIdeal.Run
import proofs.«131800_j70617852280973_2_alg».proof.Proof.Gen.ReferenceIdeal.Read
import proofs.«131800_j70617852280973_2_alg».proof.Proof.Gen.Pre_finite_inputs
import proofs.«131800_j70617852280973_2_alg».proof.Proof.CosineRow
import proofs.«131800_j70617852280973_2_alg».proof.Proof.KernelValue
import proofs.«131800_j70617852280973_2_alg».proof.Proof.ReferenceRow
import proofs.«131800_j70617852280973_2_alg».proof.Proof.FiniteInputs
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the fused cosine of the arguments' rows: the kernel program by its
    run read back, the reference because on real rows its normalise-then-dot form is the fused form. -/
theorem algebraic : Cert.algebraic_KernelIdeal_ReferenceIdeal := by
  intro m ρ m' ρ' hpre hagree
  refine ⟨fun c => Cert.KernelIdeal.Cosine.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨ha, hb⟩ := Cert.FiniteInputs.real_of_pre _ _ (hpre c)
  funext i
  obtain ⟨p, n, rfl⟩ : ∃ (p : Fin 16) (n : Fin 4096), i = ix2 p n := ⟨i 0, i 1, eq_ix2 i⟩
  rw [Cert.ReferenceIdeal.Row.result_apply]
  exact Cert.CosineRow.normalized_eq_fused _ _ (fun k => ha _) (fun k => hb _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
